-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S512x512 : Shape := ⟨2, ![512, 512]⟩
abbrev S512 : Shape := ⟨1, ![512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S32x512x512 .f32) (main_arg1 : FVec F S32x512x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32x512x512 : Shape := ⟨3, ![32, 512, 512]⟩
abbrev S512x512 : Shape := ⟨2, ![512, 512]⟩
abbrev S512 : Shape := ⟨1, ![512]⟩
abbrev S1x512 : Shape := ⟨2, ![1, 512]⟩
abbrev S2x512x512 : Shape := ⟨3, ![2, 512, 512]⟩
abbrev S1024x512 : Shape := ⟨2, ![1024, 512]⟩
abbrev S1x1x512 : Shape := ⟨3, ![1, 1, 512]⟩

abbrev nBuf : Space → Nat
  | .hbm => 15
  | .vmem => 12
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .bf16⟩
  | .hbm, ⟨9, _⟩ => ⟨S512x512, .bf16⟩
  | .hbm, ⟨10, _⟩ => ⟨S512x512, .bf16⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S32x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S2x512x512, .f32⟩
  | .local _ .vmem, ⟨11, _⟩ => ⟨S2x512x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S512_S1x512 : S512.ShapeCasts S1x512
  inb_S2x512x512_S2x512x512_0_0_0 : ∀ a, (![0, 0, 0] : Fin 3 → Nat) a + S2x512x512.size a ≤ S2x512x512.size a
  h_S2x512x512 : 0 < S2x512x512.numel
  shapeCasts_S2x512x512_S1024x512 : S2x512x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024x512_S2x512x512 : S1024x512.ShapeCasts S2x512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S2x512x512 : S1x1x512.Broadcasts S2x512x512
  dot_S1024x512_S512x512_S1024x512_1_0_0_1_n_n_wf : DotDims.WF S1024x512 S512x512 S1024x512 [1] [0] [0] [1] [] []
  dot_S2x512x512_S2x512x512_S2x512x512_2_1_1_2_0_0_wf : DotDims.WF S2x512x512 S2x512x512 S2x512x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S32x512x512.size a
  hwx0_0 : ∀ i : grid0.Coords, EltTy.bits .f32 = 32 ∨ (Rect.block (s := S32x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S32x512x512.size a
  hwx0_1 : ∀ i : grid0.Coords, EltTy.bits .f32 = 32 ∨ (Rect.block (s := S32x512x512) S2x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x512x512.size a ≤ S32x512x512.size a
  hwx0_8 : ∀ i : grid0.Coords, EltTy.bits .f32 = 32 ∨ (Rect.block (s := S32x512x512) S2x512x512.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S2x512x512_S2x512x512_S2x512x512_2_1_1_2_0_0 : DotDims S2x512x512 S2x512x512 S2x512x512 where
  lhsContracting := [2]
  rhsContracting := [1]
  lhsNonContracting := [1]
  rhsNonContracting := [2]
  lhsBatch := [0]
  rhsBatch := [0]
  wf := dot_S2x512x512_S2x512x512_S2x512x512_2_1_1_2_0_0_wf

abbrev win0_0 : Pipeline.Window sig grid0 :=
  Pipeline.Window.ofSpec (Memref.whole main_arg0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2x512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S32x512x512, .f32⟩
  | .hbm, ⟨9, _⟩ => ⟨S32x512x512, .f32⟩
  | .hbm, ⟨10, _⟩ => ⟨S1x1x512, .f32⟩
  | .hbm, ⟨11, _⟩ => ⟨S32x512x512, .f32⟩
  | .hbm, ⟨12, _⟩ => ⟨S32x512x512, .f32⟩
  | .hbm, ⟨13, _⟩ => ⟨S_, .f32⟩
  | .hbm, ⟨14, _⟩ => ⟨S32x512x512, .f32⟩
  | .hbm, ⟨15, _⟩ => ⟨S32x512x512, .f32⟩
  | .hbm, ⟨16, _⟩ => ⟨S32x512x512, .f32⟩
  | .hbm, ⟨17, _⟩ => ⟨S32x512x512, .f32⟩
  | .hbm, ⟨18, _⟩ => ⟨S1x1x512, .f32⟩
  | .hbm, ⟨19, _⟩ => ⟨S32x512x512, .f32⟩
  | .hbm, ⟨20, _⟩ => ⟨S32x512x512, .f32⟩
  | .hbm, ⟨21, _⟩ => ⟨S_, .f32⟩
  | .hbm, ⟨22, _⟩ => ⟨S32x512x512, .f32⟩
  | .hbm, ⟨23, _⟩ => ⟨S32x512x512, .f32⟩
  | .hbm, ⟨24, _⟩ => ⟨S32x512x512, .f32⟩
  | .hbm, ⟨25, _⟩ => ⟨S32x512x512, .f32⟩
  | .hbm, ⟨26, _⟩ => ⟨S1x1x512, .f32⟩
  | .hbm, ⟨27, _⟩ => ⟨S32x512x512, .f32⟩
  | .hbm, ⟨28, _⟩ => ⟨S32x512x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x512x512_0_1_2 : S1x1x512.BroadcastsInDim S32x512x512 (![0, 1, 2] : Fin 3 → Fin S32x512x512.rank)
  bcast_S_S32x512x512 : S_.BroadcastsInDim S32x512x512 (![] : Fin 0 → Fin S32x512x512.rank)
  dot_S32x512x512_S512x512_S32x512x512_2_0_01_1_n_n_wf : DotDims.WF S32x512x512 S512x512 S32x512x512 [2] [0] [0, 1] [1] [] []
  dot_S32x512x512_S32x512x512_S32x512x512_2_1_1_2_0_0_wf : DotDims.WF S32x512x512 S32x512x512 S32x512x512 [2] [1] [1] [2] [0] [0]

variable [Facts₀]

def dot_S32x512x512_S512x512_S32x512x512_2_0_01_1_n_n : DotDims S32x512x512 S512x512 S32x512x512 where
  lhsContracting := [2]
  rhsContracting := [0]
  lhsNonContracting := [0, 1]
  rhsNonContracting := [1]
  lhsBatch := []
  rhsBatch := []
  wf := dot_S32x512x512_S512x512_S32x512x512_2_0_01_1_n_n_wf
def dot_S32x512x512_S32x512x512_S32x512x512_2_1_1_2_0_0 : DotDims S32x512x512 S32x512x512 S32x512x512 where
  lhsContracting := [2]
  rhsContracting := [1]
  lhsNonContracting := [1]
  rhsNonContracting := [2]
  lhsBatch := [0]
  rhsBatch := [0]
  wf := dot_S32x512x512_S32x512x512_S32x512x512_2_1_1_2_0_0_wf

class Facts : Prop extends Facts₀ where

variable [Facts]
-- ==== Proof.Spec.lean ====
/-
  The three-layer graph-convolution network, on plain matrices of extended reals.

  One layer sends node features `X` (512 nodes by 512 features) to `A · (X · W) + b`: the features are first mixed by
  the weights `W`, then each node sums its neighbours' mixed features with the adjacency weights `A`, and the bias row
  `b` is added at every node. The network is three such layers with the rectifier `max · 0` after the first two and
  nothing after the last. A batch of graphs is processed graph by graph: graph `g` of the result is the network of graph
  `g` of the features and graph `g` of the adjacency, with the weights and biases shared.

  Everything is stated over the extended reals with the sums nested as written (the inner sum over features inside the
  sum over neighbours); no law of arithmetic is used anywhere, so no finiteness is needed.
-/
import Idealize.ShloMosaic.PureOps.Ideal
import Idealize.ShloMosaic.Lib.ValueIdx

noncomputable section

namespace Cert.Gcn

open Idealize.ShloMosaic Idealize.ShloMosaic.ValueIdx

/-- A 512 by 512 matrix of extended reals. -/
abbrev Mat : Type := Fin 512 → Fin 512 → EReal
/-- A row of 512 extended reals. -/
abbrev Row : Type := Fin 512 → EReal

/-- One layer: `A · (X · W) + b`, the bias row added at every node. -/
def lay (A X W : Mat) (b : Row) : Mat :=
  fun n e => (∑ m : Fin 512, A n m * ∑ d : Fin 512, X m d * W d e) + b e

/-- The rectifier, entry by entry. -/
def relu (Y : Mat) : Mat := fun n e => max (Y n e) 0

/-- The network: three layers, rectified after the first and the second. -/
def gcn (A X W0 : Mat) (b0 : Row) (W1 : Mat) (b1 : Row) (W2 : Mat) (b2 : Row) : Mat :=
  lay A (relu (lay A (relu (lay A X W0 b0)) W1 b1)) W2 b2

/-- Graph `g` of a batch of `B` matrices. -/
def slab {B : Nat} (x : (⟨3, ![B, 512, 512]⟩ : Shape).Idx → EReal) (g : Fin B) : Mat := fun n d => x (ix3 g n d)
/-- A rank-2 array as a matrix. -/
def mat (W : (⟨2, ![512, 512]⟩ : Shape).Idx → EReal) : Mat := fun d e => W (ix2 d e)
/-- A rank-1 array as a row. -/
def row (v : (⟨1, ![512]⟩ : Shape).Idx → EReal) : Row := fun e => v (ix1 e)
/-- A one-row rank-2 array as a row. -/
def row1 (v : (⟨2, ![1, 512]⟩ : Shape).Idx → EReal) : Row := fun e => v (ix2 (0 : Fin 1) e)

/-- The batched network: at `(g, n, e)` the network of graph `g` at node `n` and feature `e`. -/
def batched {B : Nat} (bg adj : (⟨3, ![B, 512, 512]⟩ : Shape).Idx → EReal)
    (W0 : Mat) (b0 : Row) (W1 : Mat) (b1 : Row) (W2 : Mat) (b2 : Row) : (⟨3, ![B, 512, 512]⟩ : Shape).Idx → EReal :=
  fun i => gcn (slab adj (i 0)) (slab bg (i 0)) W0 b0 W1 b1 W2 b2 (i 1) (i 2)

/-- Graph `g` of the batched network is the network of graph `g`. -/
theorem slab_batched {B : Nat} (bg adj : (⟨3, ![B, 512, 512]⟩ : Shape).Idx → EReal)
    (W0 : Mat) (b0 : Row) (W1 : Mat) (b1 : Row) (W2 : Mat) (b2 : Row) (g : Fin B) :
    slab (batched bg adj W0 b0 W1 b1 W2 b2) g = gcn (slab adj g) (slab bg g) W0 b0 W1 b1 W2 b2 := rfl

/-- A batch is determined by its graphs. -/
theorem ext_slab {B : Nat} (x y : (⟨3, ![B, 512, 512]⟩ : Shape).Idx → EReal) (h : ∀ g, slab x g = slab y g) : x = y :=
  funext fun i => by
    rw [eq_ix3 i]
    exact congrFun (congrFun (h (i 0)) (i 1)) (i 2)

end Cert.Gcn

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KernelLayer.lean ====
/-
  One layer of the kernel body, read graph by graph.

  The body holds two graphs at a time. It stacks their node rows into one 1024-row matrix, multiplies by the weights
  once (rows `g·512 + m` of the product are graph `g`'s node `m`), unstacks, multiplies each graph's adjacency by its
  own mixed features (a product with one batch axis), and adds the bias row broadcast over graphs and nodes. Read at
  graph `g` this is the layer `A · (X · W) + b` of the specification, with the sums nested the same way: the changes of
  float format between the products are the identity on extended reals, and both products start from a zero accumulator.
-/
import proofs.«101773_j59304908423673_2_alg».proof.Proof.Gen.KernelIdeal.Skeleton
import proofs.«101773_j59304908423673_2_alg».proof.Proof.Spec
import proofs.«101773_j59304908423673_2_alg».proof.Proof.LibPlainDot
import Idealize.ShloMosaic.Lib.Pipeline.Value
import Idealize.ShloMosaic.Lib.ValueLayout
import Idealize.ShloMosaic.PureOps.Ideal.Laws

noncomputable section

namespace Cert.KernelIdeal.Layer

open Cert.KernelIdeal Cert.KernelIdeal.Gen Cert.Gcn Idealize.ShloMosaic Idealize.ShloMosaic.ValueIdx

/-! ## The product with one batch axis, at an index -/

/-- The dimension numbers of `bnm,bme->bne` on two graphs. -/
abbrev DB : DotDims S2x512x512 S2x512x512 S2x512x512 := dot_S2x512x512_S2x512x512_S2x512x512_2_1_1_2_0_0

theorem lhsB_0 (i : S2x512x512.Idx) (q : DB.contr.Idx) : (DB.lhsIdx i q 0).val = (i 0).val := by
  unfold DotDims.lhsIdx
  rw [dif_pos (show (0 : Fin S2x512x512.rank) ∈ DB.lhsBatch by decide)]
  rfl
theorem lhsB_1 (i : S2x512x512.Idx) (q : DB.contr.Idx) : (DB.lhsIdx i q 1).val = (i 1).val := by
  unfold DotDims.lhsIdx
  rw [dif_neg (show ¬(1 : Fin S2x512x512.rank) ∈ DB.lhsBatch by decide),
    dif_pos (show (1 : Fin S2x512x512.rank) ∈ DB.lhsNonContracting by decide)]
  rfl
theorem lhsB_2 (i : S2x512x512.Idx) (q : DB.contr.Idx) : (DB.lhsIdx i q 2).val = (q ⟨0, by decide⟩).val :=
  DB.lhsIdx_val_of_single rfl i q
theorem rhsB_0 (i : S2x512x512.Idx) (q : DB.contr.Idx) : (DB.rhsIdx i q 0).val = (i 0).val := by
  unfold DotDims.rhsIdx
  rw [dif_pos (show (0 : Fin S2x512x512.rank) ∈ DB.rhsBatch by decide)]
  rfl
theorem rhsB_1 (i : S2x512x512.Idx) (q : DB.contr.Idx) : (DB.rhsIdx i q 1).val = (q ⟨0, by decide⟩).val :=
  DB.rhsIdx_val_of_single rfl i q
theorem rhsB_2 (i : S2x512x512.Idx) (q : DB.contr.Idx) : (DB.rhsIdx i q 2).val = (i 2).val := by
  unfold DotDims.rhsIdx
  rw [dif_neg (show ¬(2 : Fin S2x512x512.rank) ∈ DB.rhsBatch by decide),
    dif_pos (show (2 : Fin S2x512x512.rank) ∈ DB.rhsNonContracting by decide)]
  rfl

/-- Graph `g`, row `n`, column `e` of the batched product into a zero accumulator: row `n` of graph `g` of the left
    operand against column `e` of graph `g` of the right one. -/
theorem bmm_apply {φ₁ φ₂ : FTy} (l : FVec Ideal S2x512x512 φ₁) (r : FVec Ideal S2x512x512 φ₂) (g : Fin 2) (n e : Fin 512) :
    FloatOps.matmul DB none l r (constant S2x512x512 .f32 0x00000000#32) (ix3 g n e)
      = ∑ k : Fin 512, l (ix3 g n k) * r (ix3 g k e) := by
  rw [Ideal.matmul_constant_zero_apply, ← Equiv.sum_comp (contrEquiv1 DB 512 rfl rfl).symm]
  refine Finset.sum_congr rfl fun k _ => ?_
  have hk := contrEquiv1_symm_val DB 512 rfl rfl k
  have el : DB.lhsIdx (ix3 g n e) ((contrEquiv1 DB 512 rfl rfl).symm k) = ix3 g n k := funext fun a => Fin.ext (by
    match a with
    | ⟨0, _⟩ => exact lhsB_0 _ _
    | ⟨1, _⟩ => exact lhsB_1 _ _
    | ⟨2, _⟩ => exact (lhsB_2 _ _).trans hk)
  have er : DB.rhsIdx (ix3 g n e) ((contrEquiv1 DB 512 rfl rfl).symm k) = ix3 g k e := funext fun a => Fin.ext (by
    match a with
    | ⟨0, _⟩ => exact rhsB_0 _ _
    | ⟨1, _⟩ => exact (rhsB_1 _ _).trans hk
    | ⟨2, _⟩ => exact rhsB_2 _ _)
  rw [el, er]

/-! ## Stacking two graphs' rows, and the bias row -/

/-- Row `g · 512 + m` of the stacked matrix is node `m` of graph `g`. -/
def stackRow (g : Fin 2) (m : Fin 512) : Fin 1024 := ⟨g.val * 512 + m.val, by have := g.isLt; have := m.isLt; omega⟩

/-- The two graphs' rows stacked, read at a stacked row. -/
theorem stack_apply {α : Type} (x : S2x512x512.Idx → α) (h : S2x512x512.ShapeCasts S1024x512) (g : Fin 2) (m d : Fin 512) :
    shapeCast S1024x512 x h (ix2 (stackRow g m) d) = x (ix3 g m d) :=
  shapeCast_apply x h _ _ (by
    rw [Shape.rowMajor_val_three, Shape.rowMajor_val_two]
    rfl)

/-- The stacked rows taken apart again, read at a graph and a node. -/
theorem unstack_apply {α : Type} (x : S1024x512.Idx → α) (h : S1024x512.ShapeCasts S2x512x512) (g : Fin 2) (m e : Fin 512) :
    shapeCast S2x512x512 x h (ix3 g m e) = x (ix2 (stackRow g m) e) :=
  shapeCast_apply x h _ _ (by
    rw [Shape.rowMajor_val_three, Shape.rowMajor_val_two]
    rfl)

/-- The bias row, given a unit graph axis and a unit node axis and broadcast over both, reads its column. -/
theorem bias_apply {α : Type} (v : S1x512.Idx → α) (h1 : S1x512.ShapeCasts S1x512) (h2 : S1x512.ShapeCasts S1x1x512)
    (h3 : S1x1x512.Broadcasts S2x512x512) (g : Fin 2) (n e : Fin 512) :
    broadcastTo S2x512x512 (shapeCast S1x1x512 (shapeCast S1x512 v h1) h2) h3 (ix3 g n e) = v (ix2 (0 : Fin 1) e) := by
  rw [shapeCast_self]
  refine (broadcastTo_apply _ h3 (ix3 g n e) (ix3 (0 : Fin 1) (0 : Fin 1) e) fun a => ?_).trans ?_
  · match a with
    | ⟨0, _⟩ => rfl
    | ⟨1, _⟩ => rfl
    | ⟨2, _⟩ => show e.val = if (512 : Nat) = 1 then 0 else e.val; rw [if_neg (by decide)]
  · exact shapeCast_ab_1ab_apply v h2 (0 : Fin 1) (0 : Fin 1) e

/-! ## One layer -/

/-- The stacked matrix read graph by graph. -/
def unstacked (h2d : S1024x512.Idx → EReal) (g : Fin 2) : Mat := fun m d => h2d (ix2 (stackRow g m) d)

/-- Stacking then reading graph `g` is graph `g`. -/
theorem unstacked_stack (x : S2x512x512.Idx → EReal) (h : S2x512x512.ShapeCasts S1024x512) (g : Fin 2) :
    unstacked (shapeCast S1024x512 x h) g = slab x g :=
  funext fun m => funext fun d => stack_apply x h g m d

/-- One layer of the body: the stacked features times the weights, unstacked, each graph's adjacency times its mixed
    features, plus the broadcast bias. -/
def klayer (adjv : FVec Ideal S2x512x512 .bf16) (h2d : FVec Ideal S1024x512 .bf16) (W : FVec Ideal S512x512 .bf16)
    (bias : Vec Ideal S1x512 .f32) : FVec Ideal S2x512x512 .f32 :=
  addf
    (matmul dot_S2x512x512_S2x512x512_S2x512x512_2_1_1_2_0_0 none adjv
      (truncf .bf16 (shapeCast S2x512x512
        (matmul dot_S1024x512_S512x512_S1024x512_1_0_0_1_n_n none h2d W (constant S1024x512 .f32 0x00000000#32))
        shapeCasts_S1024x512_S2x512x512) bitsLt_bf16_f32)
      (constant S2x512x512 .f32 0x00000000#32))
    (broadcastTo S2x512x512 (shapeCast S1x1x512 (shapeCast S1x512 bias shapeCasts_S1x512_S1x512) shapeCasts_S1x512_S1x1x512)
      broadcasts_S1x1x512_S2x512x512)

/-- Graph `g` of one layer of the body is the specification's layer of graph `g`. -/
theorem slab_klayer (adjv : FVec Ideal S2x512x512 .bf16) (h2d : FVec Ideal S1024x512 .bf16) (W : FVec Ideal S512x512 .bf16)
    (bias : Vec Ideal S1x512 .f32) (g : Fin 2) :
    slab (klayer adjv h2d W bias) g = lay (slab adjv g) (unstacked h2d g) (mat W) (row1 bias) := by
  funext n e
  show klayer adjv h2d W bias (ix3 g n e) = _
  unfold klayer
  rw [addf_apply, bias_apply]
  refine congrArg (· + bias (ix2 (0 : Fin 1) e)) ?_
  refine (bmm_apply _ _ g n e).trans ?_
  refine Finset.sum_congr rfl fun m _ => ?_
  refine congrArg (adjv (ix3 g n m) * ·) ?_
  rw [truncf_apply, unstack_apply]
  exact Cert.PlainDot.matmul_zero_apply 1024 512 512 none h2d W (ix2 (stackRow g m) e)

end Cert.KernelIdeal.Layer

end
-- ==== Proof.KernelBody.lean ====
/-
  The value the kernel body stores, read graph by graph.

  The body runs three layers on the two graphs it holds. Between layers it rectifies (a maximum with a broadcast zero),
  narrows the float format (the identity on extended reals) and stacks the two graphs' rows again for the next product
  with the weights; the last layer's result is stored whole. So graph `g` of the stored block is the specification's
  network of graph `g` of the adjacency block and of the feature block, with the weight blocks as matrices and the
  one-row bias blocks as rows.
-/
import proofs.«101773_j59304908423673_2_alg».proof.Proof.KernelLayer

noncomputable section

namespace Cert.KernelIdeal.Layer

open Cert.KernelIdeal Cert.KernelIdeal.Gen Cert.Gcn Idealize.ShloMosaic Idealize.ShloMosaic.ValueIdx

/-- A layer, rectified, narrowed and stacked for the next product with the weights. -/
def kstep (adjv : FVec Ideal S2x512x512 .bf16) (h2d : FVec Ideal S1024x512 .bf16) (W : FVec Ideal S512x512 .bf16)
    (bias : Vec Ideal S1x512 .f32) : FVec Ideal S1024x512 .bf16 :=
  shapeCast S1024x512
    (truncf .bf16 (maximumf (klayer adjv h2d W bias) (broadcast S2x512x512 (Scalar.ofBits (F := Ideal) .f32 0x00000000#32)))
      bitsLt_bf16_f32)
    shapeCasts_S2x512x512_S1024x512

/-- Graph `g` of that is the rectified layer of graph `g`. -/
theorem unstacked_kstep (adjv : FVec Ideal S2x512x512 .bf16) (h2d : FVec Ideal S1024x512 .bf16) (W : FVec Ideal S512x512 .bf16)
    (bias : Vec Ideal S1x512 .f32) (g : Fin 2) :
    unstacked (kstep adjv h2d W bias) g = relu (lay (slab adjv g) (unstacked h2d g) (mat W) (row1 bias)) := by
  unfold kstep
  rw [unstacked_stack, ← slab_klayer]
  funext n e
  show max (klayer adjv h2d W bias (ix3 g n e)) (Ideal.ofBits .f32 0x00000000#32) = max (klayer adjv h2d W bias (ix3 g n e)) 0
  rw [Ideal.ofBits_zero_f32]

/-- Graph `g` of the value the body stores: the network of graph `g` of its loaded blocks. -/
theorem slab_payload (x0 x1 : Vec Ideal S2x512x512 .f32) (x2 : Vec Ideal S512x512 .bf16) (x3 : Vec Ideal S1x512 .f32)
    (x4 : Vec Ideal S512x512 .bf16) (x5 : Vec Ideal S1x512 .f32) (x6 : Vec Ideal S512x512 .bf16) (x7 : Vec Ideal S1x512 .f32) (g : Fin 2) :
    slab (k0_pay1 (F := Ideal) (k0_pay2 x1) (k0_pay3 x0 x1 x2 x3 x4 x5) (k0_pay4 x6) x7) g
      = gcn (slab x1 g) (slab x0 g) (mat x2) (row1 x3) (mat x4) (row1 x5) (mat x6) (row1 x7) := by
  have e1 : k0_pay1 (F := Ideal) (k0_pay2 x1) (k0_pay3 x0 x1 x2 x3 x4 x5) (k0_pay4 x6) x7
      = klayer (k0_pay2 x1) (k0_pay3 x0 x1 x2 x3 x4 x5) (k0_pay4 x6) x7 := rfl
  have e3 : k0_pay3 (F := Ideal) x0 x1 x2 x3 x4 x5
      = kstep (k0_pay2 x1)
          (kstep (k0_pay2 x1) (shapeCast S1024x512 (truncf .bf16 x0 bitsLt_bf16_f32) shapeCasts_S2x512x512_S1024x512)
            (shapeCast S512x512 x2 shapeCasts_S512x512_S512x512) x3)
          (shapeCast S512x512 x4 shapeCasts_S512x512_S512x512) x5 := rfl
  have e4 : k0_pay4 (F := Ideal) x6 = x6 := shapeCast_self x6 _
  rw [e1, slab_klayer, e3, unstacked_kstep, unstacked_kstep, unstacked_stack, e4, shapeCast_self, shapeCast_self]
  rfl

end Cert.KernelIdeal.Layer

end
-- ==== Proof.KernelArray.lean ====
/-
  From the kernel's blocks to its whole result array.

  Grid point `t` of sixteen holds graphs `2t` and `2t + 1`: its feature, adjacency and result blocks are those two
  graphs of their arrays, and its weight and bias blocks are the whole weight and bias arrays. So what point `t` writes
  back is graphs `2t`, `2t + 1` of the batched network of the arrays the region finds; the sixteen blocks cover the 32
  graphs (graph `G` lies in the block of point `G / 2`), so after the run the result array is the batched network.
  Before the region the host only narrows the weights' float format (the identity on extended reals) and gives each bias
  a leading unit axis, so the network is that of the arguments themselves.
-/
import proofs.«101773_j59304908423673_2_alg».proof.Proof.Gen.KernelIdeal.Value
import proofs.«101773_j59304908423673_2_alg».proof.Proof.KernelBody
import Idealize.ShloMosaic.Lib.Pipeline.Value
import Idealize.ShloMosaic.Lib.StableHlo.Run
import Idealize.ShloMosaic.Lib.ValueLayout

set_option maxRecDepth 16384

noncomputable section

namespace Cert.KernelIdeal.Array

open Cert.KernelIdeal Cert.KernelIdeal.Gen Cert.KernelIdeal.Layer Cert.Gcn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The block the body leaves is its one stored value -/

theorem hz3 : (![0, 0, 0] : Fin 3 → Nat) = fun _ => 0 := funext fun a => by fin_cases a <;> rfl
theorem hz2 : (![0, 0] : Fin 2 → Nat) = fun _ => 0 := funext fun a => by fin_cases a <;> rfl

/-- The body stores once, through the whole block, and loads every input block whole. -/
theorem out_eq (x0 x1 : Vec Ideal S2x512x512 .f32) (x2 : Vec Ideal S512x512 .bf16) (x3 : Vec Ideal S1x512 .f32)
    (x4 : Vec Ideal S512x512 .bf16) (x5 : Vec Ideal S1x512 .f32) (x6 : Vec Ideal S512x512 .bf16) (x7 : Vec Ideal S1x512 .f32) :
    out0_8 (F := Ideal) x0 x1 x2 x3 x4 x5 x6 x7
      = k0_pay1 (F := Ideal) (k0_pay2 x1) (k0_pay3 x0 x1 x2 x3 x4 x5) (k0_pay4 x6) x7 := by
  unfold out0_8
  rw [View.canon_unit_zero hz3]
  simp only [View.ld_unit_zero (S := S2x512x512) hz3, View.ld_unit_zero (S := S512x512) hz2, View.ld_unit_zero (S := S1x512) hz2]

/-! ## One entry of a block, over variable arrays -/

/-- An entry of a two-graph block from its graph: if graph `y 0` of `X` is graph `G` of `Y`, then `X` at `y` is `Y` at
    `(G, y 1, y 2)`. -/
theorem entry_of_slab (X : S2x512x512.Idx → EReal) (Y : S32x512x512.Idx → EReal) (y : S2x512x512.Idx) (G : Fin 32)
    (h : slab X (y 0) = slab Y G) : X y = Y (ix3 G (y 1) (y 2)) :=
  (congrArg X (eq_ix3 y)).trans (congrFun (congrFun h (y 1)) (y 2))

/-- If graph `y 0` of the two held feature and adjacency blocks is graph `G` of the arrays `A0`, `A1`, and the weight and
    bias blocks are the given matrices and rows, the body's block at `y` is the batched network at `(G, y 1, y 2)`. -/
theorem block_entry (A0 A1 : S32x512x512.Idx → EReal) (M0 : Mat) (R0 : Row) (M1 : Mat) (R1 : Row) (M2 : Mat) (R2 : Row)
    (x0 x1 : Vec Ideal S2x512x512 .f32) (x2 : Vec Ideal S512x512 .bf16) (x3 : Vec Ideal S1x512 .f32)
    (x4 : Vec Ideal S512x512 .bf16) (x5 : Vec Ideal S1x512 .f32) (x6 : Vec Ideal S512x512 .bf16) (x7 : Vec Ideal S1x512 .f32)
    (y : S2x512x512.Idx) (G : Fin 32)
    (h0 : slab x0 (y 0) = slab A0 G) (h1 : slab x1 (y 0) = slab A1 G)
    (h2 : mat x2 = M0) (h3 : row1 x3 = R0) (h4 : mat x4 = M1) (h5 : row1 x5 = R1) (h6 : mat x6 = M2) (h7 : row1 x7 = R2)
    (I : S32x512x512.Idx) (hI : I = ix3 G (y 1) (y 2)) :
    out0_8 (F := Ideal) x0 x1 x2 x3 x4 x5 x6 x7 y = batched A0 A1 M0 R0 M1 R1 M2 R2 I := by
  subst hI h2 h3 h4 h5 h6 h7
  exact entry_of_slab (out0_8 (F := Ideal) x0 x1 x2 x3 x4 x5 x6 x7)
    (batched A0 A1 (mat x2) (row1 x3) (mat x4) (row1 x5) (mat x6) (row1 x7)) y G
    ((congrArg (fun X => slab X (y 0)) (out_eq x0 x1 x2 x3 x4 x5 x6 x7)).trans
      ((slab_payload x0 x1 x2 x3 x4 x5 x6 x7 (y 0)).trans
        ((congrArg₂ (fun a b => gcn a b (mat x2) (row1 x3) (mat x4) (row1 x5) (mat x6) (row1 x7)) h1 h0).trans
          (slab_batched A0 A1 (mat x2) (row1 x3) (mat x4) (row1 x5) (mat x6) (row1 x7) G).symm)))

/-- A two-graph block read off a 32-graph array: graph `g` of the block is graph `G` of the array when the block's
    index map sends `(g, n, d)` to `(G, n, d)`. -/
theorem slab_block (A : S32x512x512.Idx → EReal) (x : S2x512x512.Idx → EReal) (emb : S2x512x512.Idx → S32x512x512.Idx)
    (hx : ∀ y, x y = A (emb y)) (g : Fin 2) (G : Fin 32) (hemb : ∀ n d : Fin 512, emb (ix3 g n d) = ix3 G n d) :
    slab x g = slab A G :=
  funext fun n => funext fun d => (hx _).trans (congrArg A (hemb n d))

/-- A weight block that is the whole weight array. -/
theorem mat_block (A x : S512x512.Idx → EReal) (emb : S512x512.Idx → S512x512.Idx)
    (hx : ∀ y, x y = A (emb y)) (hemb : ∀ d e : Fin 512, emb (ix2 d e) = ix2 d e) : mat x = mat A :=
  funext fun d => funext fun e => (hx _).trans (congrArg A (hemb d e))

/-- A bias block that is the whole one-row bias array. -/
theorem row1_block (A x : S1x512.Idx → EReal) (emb : S1x512.Idx → S1x512.Idx)
    (hx : ∀ y, x y = A (emb y)) (hemb : ∀ e : Fin 512, emb (ix2 (0 : Fin 1) e) = ix2 (0 : Fin 1) e) : row1 x = row1 A :=
  funext fun e => (hx _).trans (congrArg A (hemb e))

/-! ## The index maps, decided over the sixteen points -/

/-- The feature, adjacency and result windows sit at block `t` of the graph axis; the weight and bias windows stay at
    block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_8.index t (0 : Fin 3) = t.val ∧ win0_8.index t (1 : Fin 3) = 0 ∧ win0_8.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-! ## What a point writes back, the cover, and the array after the run -/

/-- The result array as one function of the arrays the region finds. -/
def whole (c : Dev nD) : S32x512x512.Idx → EReal :=
  batched (V m c main_arg0) (V m c main_arg1) (mat (V m c main_v0)) (row1 (V m c main_v3))
    (mat (V m c main_v1)) (row1 (V m c main_v4)) (mat (V m c main_v2)) (row1 (V m c main_v5))

/-- Point `t` writes back block `t` of that function. -/
theorem flushed_eq (c : Dev nD) (t : Fin cfg0.N) :
    (dats m 0 c).flushed 8 t = ((cfg0.win 8).blk t).view.read (Elt Ideal) (whole m c) := by
  rw [Value.flushed8]
  obtain ⟨⟨a0, a1, a2⟩, ⟨b0, b1, b2⟩, ⟨o0, o1, o2⟩, ⟨p0, p1⟩, ⟨q0, q1⟩, ⟨r0, r1⟩, ⟨s0, s1⟩, ⟨u0, u1⟩, ⟨v0, v1⟩⟩ := idx_facts t
  have ht : t.val < 16 := Nat.lt_of_lt_of_eq t.isLt N_0
  funext j
  have hj0 : (j 0).val < 2 := (j 0).isLt
  rw [View.read_apply, cast_eq]
  unfold whole
  refine block_entry (V m c main_arg0) (V m c main_arg1) _ _ _ _ _ _
    (iblk m c 0 t) (iblk m c 1 t) (iblk m c 2 t) (iblk m c 3 t) (iblk m c 4 t) (iblk m c 5 t) (iblk m c 6 t) (iblk m c 7 t)
    ((cfg0.win 8).xinj (grid0.coords t) j) ⟨2 * t.val + (j 0).val, by omega⟩ ?_ ?_ ?_ ?_ ?_ ?_ ?_ ?_ _ ?_
  · exact slab_block _ _ ((cfg0.win 0).blk t).view.emb (fun _ => rfl) _ _ fun n d => funext fun a => Fin.ext (by
      match a with
      | ⟨0, _⟩ => show win0_0.index t (0 : Fin 3) * 2 + 1 * (j 0).val = 2 * t.val + (j 0).val; omega
      | ⟨1, _⟩ => show win0_0.index t (1 : Fin 3) * 512 + 1 * n.val = n.val; omega
      | ⟨2, _⟩ => show win0_0.index t (2 : Fin 3) * 512 + 1 * d.val = d.val; omega)
  · exact slab_block _ _ ((cfg0.win 1).blk t).view.emb (fun _ => rfl) _ _ fun n d => funext fun a => Fin.ext (by
      match a with
      | ⟨0, _⟩ => show win0_1.index t (0 : Fin 3) * 2 + 1 * (j 0).val = 2 * t.val + (j 0).val; omega
      | ⟨1, _⟩ => show win0_1.index t (1 : Fin 3) * 512 + 1 * n.val = n.val; omega
      | ⟨2, _⟩ => show win0_1.index t (2 : Fin 3) * 512 + 1 * d.val = d.val; omega)
  · exact mat_block _ _ ((cfg0.win 2).blk t).view.emb (fun _ => rfl) fun d e => funext fun a => Fin.ext (by
      match a with
      | ⟨0, _⟩ => show win0_2.index t (0 : Fin 2) * 512 + 1 * d.val = d.val; omega
      | ⟨1, _⟩ => show win0_2.index t (1 : Fin 2) * 512 + 1 * e.val = e.val; omega)
  · exact row1_block _ _ ((cfg0.win 3).blk t).view.emb (fun _ => rfl) fun e => funext fun a => Fin.ext (by
      match a with
      | ⟨0, _⟩ => show win0_3.index t (0 : Fin 2) * 1 + 1 * 0 = 0; omega
      | ⟨1, _⟩ => show win0_3.index t (1 : Fin 2) * 512 + 1 * e.val = e.val; omega)
  · exact mat_block _ _ ((cfg0.win 4).blk t).view.emb (fun _ => rfl) fun d e => funext fun a => Fin.ext (by
      match a with
      | ⟨0, _⟩ => show win0_4.index t (0 : Fin 2) * 512 + 1 * d.val = d.val; omega
      | ⟨1, _⟩ => show win0_4.index t (1 : Fin 2) * 512 + 1 * e.val = e.val; omega)
  · exact row1_block _ _ ((cfg0.win 5).blk t).view.emb (fun _ => rfl) fun e => funext fun a => Fin.ext (by
      match a with
      | ⟨0, _⟩ => show win0_5.index t (0 : Fin 2) * 1 + 1 * 0 = 0; omega
      | ⟨1, _⟩ => show win0_5.index t (1 : Fin 2) * 512 + 1 * e.val = e.val; omega)
  · exact mat_block _ _ ((cfg0.win 6).blk t).view.emb (fun _ => rfl) fun d e => funext fun a => Fin.ext (by
      match a with
      | ⟨0, _⟩ => show win0_6.index t (0 : Fin 2) * 512 + 1 * d.val = d.val; omega
      | ⟨1, _⟩ => show win0_6.index t (1 : Fin 2) * 512 + 1 * e.val = e.val; omega)
  · exact row1_block _ _ ((cfg0.win 7).blk t).view.emb (fun _ => rfl) fun e => funext fun a => Fin.ext (by
      match a with
      | ⟨0, _⟩ => show win0_7.index t (0 : Fin 2) * 1 + 1 * 0 = 0; omega
      | ⟨1, _⟩ => show win0_7.index t (1 : Fin 2) * 512 + 1 * e.val = e.val; omega)
  · exact funext fun a => Fin.ext (by
      match a with
      | ⟨0, _⟩ => show win0_8.index t (0 : Fin 3) * 2 + 1 * (j 0).val = 2 * t.val + (j 0).val; omega
      | ⟨1, _⟩ => show win0_8.index t (1 : Fin 3) * 512 + 1 * (j 1).val = (j 1).val; omega
      | ⟨2, _⟩ => show win0_8.index t (2 : Fin 3) * 512 + 1 * (j 2).val = (j 2).val; omega)

/-- An index of the result array is in point `t`'s block iff each coordinate is in the block's range on its axis. -/
theorem mem_blk (t : Fin cfg0.N) (i : S32x512x512.Idx) :
    i ∈ ((cfg0.win 8).blk t).view.set ↔ ∀ a : Fin 3, win0_8.index t a * S2x512x512.size a ≤ (i a).val
      ∧ (i a).val < win0_8.index t a * S2x512x512.size a + S2x512x512.size a := by
  show i ∈ ((View.whole main_v6).slice (win0_8.rect t)).set ↔ _
  rw [View.set_slice_whole, Rect.mem_set_unit]
  exact Iff.rfl

/-- Graph `G` lies in the block of point `G / 2`: the blocks cover the array. -/
theorem cover (i : S32x512x512.Idx) : ∃ t : Fin cfg0.N, (cfg0.win 8).flush t = true ∧ i ∈ ((cfg0.win 8).blk t).view.set := by
  have hi0 : (i 0).val < 32 := (i 0).isLt
  have hi1 : (i 1).val < 512 := (i 1).isLt
  have hi2 : (i 2).val < 512 := (i 2).isLt
  have hlt : (i 0).val / 2 < cfg0.N := Nat.lt_of_lt_of_eq (by omega : (i 0).val / 2 < 16) N_0.symm
  obtain ⟨-, -, ⟨o0, o1, o2⟩, -⟩ := idx_facts ⟨(i 0).val / 2, hlt⟩
  have o0' : win0_8.index ⟨(i 0).val / 2, hlt⟩ (0 : Fin 3) = (i 0).val / 2 := o0
  refine ⟨⟨(i 0).val / 2, hlt⟩, flush0_8 _, ?_⟩
  rw [mem_blk]
  intro a
  match a with
  | ⟨0, _⟩ =>
    show win0_8.index ⟨(i 0).val / 2, hlt⟩ (0 : Fin 3) * 2 ≤ (i 0).val ∧ (i 0).val < win0_8.index ⟨(i 0).val / 2, hlt⟩ (0 : Fin 3) * 2 + 2
    omega
  | ⟨1, _⟩ =>
    show win0_8.index ⟨(i 0).val / 2, hlt⟩ (1 : Fin 3) * 512 ≤ (i 1).val ∧ (i 1).val < win0_8.index ⟨(i 0).val / 2, hlt⟩ (1 : Fin 3) * 512 + 512
    omega
  | ⟨2, _⟩ =>
    show win0_8.index ⟨(i 0).val / 2, hlt⟩ (2 : Fin 3) * 512 ≤ (i 2).val ∧ (i 2).val < win0_8.index ⟨(i 0).val / 2, hlt⟩ (2 : Fin 3) * 512 + 512
    omega

/-- The result array after the run is that function of the arrays the region finds. -/
theorem final (c : Dev nD) : (dats m 0 c).arrAt 8 cfg0.N = whole m c :=
  (dats m 0 c).arrAt_eq_of_cover 8 (whole m c) (fun t _ => flushed_eq m c t) cover

end Cert.KernelIdeal.Array

end
-- ==== Proof.KernelRun.lean ====
/-
  The kernel's run, with its result named as a function of the arguments.

  Before the region the host narrows the three weight arrays' float format, which on extended reals changes nothing, and
  reshapes each bias from 512 entries to one row of 512; the feature and adjacency arrays reach the region as launched.
  So the result array after the run is the batched network of the eight arguments.
-/
import proofs.«101773_j59304908423673_2_alg».proof.Proof.KernelArray

noncomputable section

namespace Cert.KernelIdeal.Array

open Cert.KernelIdeal Cert.KernelIdeal.Gen Cert.KernelIdeal.Layer Cert.Gcn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host writes before the region -/

/-- The narrowed first weights are the first weights. -/
theorem mat_v0 (c : Dev nD) : mat (V m c main_v0) = mat (m ((c : Thread nD τ).loc main_arg2)) := by
  have e : (V m c main_v0 : S512x512.Idx → EReal)
      = truncf (F := Ideal) .bf16 (m ((c : Thread nD τ).loc main_arg2)) bitsLt_bf16_f32 := by
    dsimp only [V, hostOps0]; after_results <;> rfl
  rw [e]; rfl
/-- The narrowed second weights are the second weights. -/
theorem mat_v1 (c : Dev nD) : mat (V m c main_v1) = mat (m ((c : Thread nD τ).loc main_arg4)) := by
  have e : (V m c main_v1 : S512x512.Idx → EReal)
      = truncf (F := Ideal) .bf16 (m ((c : Thread nD τ).loc main_arg4)) bitsLt_bf16_f32 := by
    dsimp only [V, hostOps0]; after_results <;> rfl
  rw [e]; rfl
/-- The narrowed third weights are the third weights. -/
theorem mat_v2 (c : Dev nD) : mat (V m c main_v2) = mat (m ((c : Thread nD τ).loc main_arg6)) := by
  have e : (V m c main_v2 : S512x512.Idx → EReal)
      = truncf (F := Ideal) .bf16 (m ((c : Thread nD τ).loc main_arg6)) bitsLt_bf16_f32 := by
    dsimp only [V, hostOps0]; after_results <;> rfl
  rw [e]; rfl

/-- The first bias as one row is the first bias. -/
theorem row1_v3 (c : Dev nD) : row1 (V m c main_v3) = row (m ((c : Thread nD τ).loc main_arg3)) := by
  have e : (V m c main_v3 : S1x512.Idx → EReal)
      = shapeCast S1x512 (m ((c : Thread nD τ).loc main_arg3)) shapeCasts_S512_S1x512 := by
    dsimp only [V, hostOps0]; after_results <;> rfl
  rw [e]
  exact funext fun k => shapeCast_a_1a_apply _ _ (0 : Fin 1) k
/-- The second bias as one row is the second bias. -/
theorem row1_v4 (c : Dev nD) : row1 (V m c main_v4) = row (m ((c : Thread nD τ).loc main_arg5)) := by
  have e : (V m c main_v4 : S1x512.Idx → EReal)
      = shapeCast S1x512 (m ((c : Thread nD τ).loc main_arg5)) shapeCasts_S512_S1x512 := by
    dsimp only [V, hostOps0]; after_results <;> rfl
  rw [e]
  exact funext fun k => shapeCast_a_1a_apply _ _ (0 : Fin 1) k
/-- The third bias as one row is the third bias. -/
theorem row1_v5 (c : Dev nD) : row1 (V m c main_v5) = row (m ((c : Thread nD τ).loc main_arg7)) := by
  have e : (V m c main_v5 : S1x512.Idx → EReal)
      = shapeCast S1x512 (m ((c : Thread nD τ).loc main_arg7)) shapeCasts_S512_S1x512 := by
    dsimp only [V, hostOps0]; after_results <;> rfl
  rw [e]
  exact funext fun k => shapeCast_a_1a_apply _ _ (0 : Fin 1) k

/-- The result array as a function of the arguments. -/
theorem whole_eq (c : Dev nD) :
    whole m c = batched (m ((c : Thread nD τ).loc main_arg0)) (m ((c : Thread nD τ).loc main_arg1))
      (mat (m ((c : Thread nD τ).loc main_arg2))) (row (m ((c : Thread nD τ).loc main_arg3)))
      (mat (m ((c : Thread nD τ).loc main_arg4))) (row (m ((c : Thread nD τ).loc main_arg5)))
      (mat (m ((c : Thread nD τ).loc main_arg6))) (row (m ((c : Thread nD τ).loc main_arg7))) := by
  unfold whole
  rw [V_main_arg0, V_main_arg1, mat_v0, row1_v3, mat_v1, row1_v4, mat_v2, row1_v5]

/-! ## The run -/

/-- Every weakly fair execution of the kernel terminates with the result array at the batched network of the arguments
    and the arguments unchanged. -/
theorem run : θ_run defs (onTc (τ := τ) (main (F := Ideal))) ⟨m, fun _ => 0, ρ⟩ fun r => ∀ c : Dev nD,
      r.2.mem ((c : Thread nD τ).loc main_v6)
        = batched (m ((c : Thread nD τ).loc main_arg0)) (m ((c : Thread nD τ).loc main_arg1))
            (mat (m ((c : Thread nD τ).loc main_arg2))) (row (m ((c : Thread nD τ).loc main_arg3)))
            (mat (m ((c : Thread nD τ).loc main_arg4))) (row (m ((c : Thread nD τ).loc main_arg5)))
            (mat (m ((c : Thread nD τ).loc main_arg6))) (row (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (whole_eq m c)), (h c).2⟩)
    (Value.run_blocks m ρ)

end Cert.KernelIdeal.Array

end
-- ==== Proof.RefValue.lean ====
/-
  The reference program computes the batched network of the specification.

  Each of its three layers is the same five host operations: the features times the weights (a contraction over the
  feature axis), the adjacency times that (a contraction over the neighbour axis with the graph axis as batch), and the
  bias row broadcast over graphs and nodes and added; the rectifier between layers is a maximum with a broadcast zero.
  Read at graph `g`, node `n`, feature `e` these are the specification's nested sums, term for term.
-/
import proofs.«101773_j59304908423673_2_alg».proof.Proof.Gen.ReferenceIdeal.Read
import proofs.«101773_j59304908423673_2_alg».proof.Proof.Spec
import Idealize.ShloMosaic.PureOps.Ideal.Laws

noncomputable section

namespace Cert.ReferenceIdeal.RefValue

open Cert.ReferenceIdeal Cert.ReferenceIdeal.Read Cert.Gcn Idealize.ShloMosaic Idealize.ShloMosaic.ValueIdx

/-! ## The operand indices of the two contractions and of the bias broadcasts, by coordinates -/

theorem adj_idx (g : Fin 32) (n e k : Fin 512) : lidx_main_v1 (ix3 g n e) k = ix3 g n k :=
  funext fun a => Fin.ext (by match a with | ⟨0, _⟩ => rfl | ⟨1, _⟩ => rfl | ⟨2, _⟩ => rfl)
theorem mixed_idx (g : Fin 32) (n e k : Fin 512) : ridx_main_v1 (ix3 g n e) k = ix3 g k e :=
  funext fun a => Fin.ext (by match a with | ⟨0, _⟩ => rfl | ⟨1, _⟩ => rfl | ⟨2, _⟩ => rfl)
theorem feat_idx (g : Fin 32) (m e d : Fin 512) : lidx_main_v0 (ix3 g m e) d = ix3 g m d :=
  funext fun a => Fin.ext (by match a with | ⟨0, _⟩ => rfl | ⟨1, _⟩ => rfl | ⟨2, _⟩ => rfl)
theorem weight_idx (g : Fin 32) (m e d : Fin 512) : ridx_main_v0 (ix3 g m e) d = ix2 d e :=
  funext fun a => Fin.ext (by match a with | ⟨0, _⟩ => rfl | ⟨1, _⟩ => rfl)
theorem bias_idx (g : Fin 32) (n e : Fin 512) : idx_main_v2 (idx_main_v3 (ix3 g n e)) = ix1 e :=
  funext fun a => Fin.ext (by match a with | ⟨0, _⟩ => rfl)

/-! ## One layer, the rectifier, and the three layers -/

/-- Graph `g` of one layer of the reference is the specification's layer of graph `g`. -/
theorem slab_layer (h adj : FVec Ideal S32x512x512 .f32) (W : FVec Ideal S512x512 .f32) (b : FVec Ideal S512 .f32) (g : Fin 32) :
    slab (val_main_v4 (F := Ideal) h adj W b) g = lay (slab adj g) (slab h g) (mat W) (row b) := by
  funext n e
  show val_main_v4 (F := Ideal) h adj W b (ix3 g n e) = _
  rw [val_main_v4_apply, val_main_v1_apply, val_main_v3_apply, val_main_v2_apply]
  simp only [val_main_v0_apply, adj_idx, mixed_idx, feat_idx, weight_idx, bias_idx]
  rfl

/-- Graph `g` of the maximum with the broadcast zero is the rectifier of graph `g`. -/
theorem slab_relu (y : FVec Ideal S32x512x512 .f32) (g : Fin 32) :
    slab (maximumf y (val_main_call0_v0 (F := Ideal))) g = relu (slab y g) := by
  funext n e
  show max (y (ix3 g n e)) (val_main_call0_v0 (F := Ideal) (ix3 g n e)) = max (y (ix3 g n e)) 0
  rw [val_main_call0_v0_apply, val_main_call0_cst_apply]
  show max _ (Ideal.ofBits .f32 0x00000000#32) = _
  rw [Ideal.ofBits_zero_f32]

/-- Graph `g` of the reference's result is the network of graph `g` of its arguments. -/
theorem slab_result (x0 x1 : FVec Ideal S32x512x512 .f32) (x2 : FVec Ideal S512x512 .f32) (x3 : FVec Ideal S512 .f32)
    (x4 : FVec Ideal S512x512 .f32) (x5 : FVec Ideal S512 .f32) (x6 : FVec Ideal S512x512 .f32) (x7 : FVec Ideal S512 .f32) (g : Fin 32) :
    slab (val_main_v16 (F := Ideal) x0 x1 x2 x3 x4 x5 x6 x7) g
      = gcn (slab x1 g) (slab x0 g) (mat x2) (row x3) (mat x4) (row x5) (mat x6) (row x7) := by
  have e16 : val_main_v16 (F := Ideal) x0 x1 x2 x3 x4 x5 x6 x7
      = val_main_v4 (F := Ideal) (val_main_v11 (F := Ideal) x0 x1 x2 x3 x4 x5) x1 x6 x7 := rfl
  have e11 : val_main_v11 (F := Ideal) x0 x1 x2 x3 x4 x5
      = maximumf (F := Ideal) (s := S32x512x512) (φ := .f32)
          (val_main_v4 (F := Ideal) (val_main_v5 (F := Ideal) x0 x1 x2 x3) x1 x4 x5) (val_main_call0_v0 (F := Ideal)) := rfl
  have e5 : val_main_v5 (F := Ideal) x0 x1 x2 x3
      = maximumf (F := Ideal) (s := S32x512x512) (φ := .f32)
          (val_main_v4 (F := Ideal) x0 x1 x2 x3) (val_main_call0_v0 (F := Ideal)) := rfl
  rw [e16, slab_layer, e11, slab_relu, slab_layer, e5, slab_relu, slab_layer]
  rfl

/-- The reference's result is the batched network of its arguments. -/
theorem result_eq (x0 x1 : FVec Ideal S32x512x512 .f32) (x2 : FVec Ideal S512x512 .f32) (x3 : FVec Ideal S512 .f32)
    (x4 : FVec Ideal S512x512 .f32) (x5 : FVec Ideal S512 .f32) (x6 : FVec Ideal S512x512 .f32) (x7 : FVec Ideal S512 .f32) :
    val_main_v16 (F := Ideal) x0 x1 x2 x3 x4 x5 x6 x7
      = batched x0 x1 (mat x2) (row x3) (mat x4) (row x5) (mat x6) (row x7) :=
  ext_slab _ _ fun g => (slab_result x0 x1 x2 x3 x4 x5 x6 x7 g).trans (slab_batched _ _ _ _ _ _ _ _ g).symm

end Cert.ReferenceIdeal.RefValue

end
-- ==== Proof.lean ====
/-
  A three-layer graph-convolution kernel against its plain reference, on the extended reals.

  Both programs take a batch of 32 graphs (node features and adjacency weights, 512 nodes each), three weight matrices
  and three bias rows, and return, per graph, `A · (relu (A · (relu (A · (X · W0) + b0)) · W1) + b1) · W2) + b2`, where
  every product `A · (H · W)` is the sum over neighbours of the adjacency weight times the sum over features of the
  feature times the weight. The kernel walks the batch two graphs at a time, stacking the two graphs' rows for the
  product with the weights and narrowing float formats on the way; the reference contracts whole arrays. On extended
  reals a change of float format is the identity, a matrix product into a zero accumulator is the plain sum, and both
  programs nest their sums the same way, so the two results are one function of the arguments, index by index: no law
  of arithmetic joins the two sides, and the precondition that the inputs are finite is never opened.

  The frames of the two kernel programs are the generated ones; the reference's frame is its generated run with the
  result dropped; the idealization rewrote no operation, so that conjunct is trivial; the last conjunct sets the kernel's
  run (its result array named as the batched network of the arguments) beside the reference's run (its result term read
  as the same network).
-/
import proofs.«101773_j59304908423673_2_alg».proof.Defs
import proofs.«101773_j59304908423673_2_alg».proof.Proof.Gen.Kernel
import proofs.«101773_j59304908423673_2_alg».proof.Proof.Gen.Kernel.Skeleton
import proofs.«101773_j59304908423673_2_alg».proof.Proof.Gen.Kernel.Launch
import proofs.«101773_j59304908423673_2_alg».proof.Proof.Gen.Kernel.Points
import proofs.«101773_j59304908423673_2_alg».proof.Proof.Gen.Kernel.Frame
import proofs.«101773_j59304908423673_2_alg».proof.Proof.Gen.KernelIdeal
import proofs.«101773_j59304908423673_2_alg».proof.Proof.Gen.KernelIdeal.Skeleton
import proofs.«101773_j59304908423673_2_alg».proof.Proof.Gen.KernelIdeal.Launch
import proofs.«101773_j59304908423673_2_alg».proof.Proof.Gen.KernelIdeal.Points
import proofs.«101773_j59304908423673_2_alg».proof.Proof.Gen.KernelIdeal.Frame
import proofs.«101773_j59304908423673_2_alg».proof.Proof.Gen.ReferenceIdeal
import proofs.«101773_j59304908423673_2_alg».proof.Proof.Gen.Pre_finite_inputs
import proofs.«101773_j59304908423673_2_alg».proof.Proof.Gen.KernelIdeal.Value
import proofs.«101773_j59304908423673_2_alg».proof.Proof.Gen.ReferenceIdeal.Run
import proofs.«101773_j59304908423673_2_alg».proof.Proof.Gen.ReferenceIdeal.Read
import proofs.«101773_j59304908423673_2_alg».proof.Proof.KernelRun
import proofs.«101773_j59304908423673_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's both end at the batched
    network of the arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
